-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x2 .f32 := Host.absf main_arg4
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x64, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x2, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x2, .f32⟩
  | .hbm, ⟨75, _⟩ => ⟨S3300000x1, .f32⟩
  | .hbm, ⟨76, _⟩ => ⟨S3300000x2, .f32⟩
  | .hbm, ⟨77, _⟩ => ⟨S3300000x2, .f32⟩
  | .hbm, ⟨78, _⟩ => ⟨S_, .f32⟩
  | .hbm, ⟨79, _⟩ => ⟨S100000x2, .f32⟩
  | .hbm, ⟨80, _⟩ => ⟨S3300000x1, .i32⟩
  | .hbm, ⟨81, _⟩ => ⟨S100000x2, .f32⟩
  | .hbm, ⟨82, _⟩ => ⟨S1x2, .f32⟩
  | .hbm, ⟨83, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x2, .f32⟩
  | .local _ .vmem, ⟨13, _⟩ => ⟨S10000x2, .f32⟩
  | .local _ .vmem, ⟨14, _⟩ => ⟨S10000x2, .f32⟩
  | .local _ .vmem, ⟨15, _⟩ => ⟨S10000x2, .f32⟩
  | .local _ .vmem, ⟨16, _⟩ => ⟨S10000x2, .f32⟩
  | .local _ .vmem, ⟨17, _⟩ => ⟨S1x2, .f32⟩
  | .local _ .vmem, ⟨18, _⟩ => ⟨S10000x2, .f32⟩
  | .local _ .vmem, ⟨19, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x2_S64x2_0_0 : ∀ a, (![0, 0] : Fin 2 → Nat) a + S64x2.size a ≤ S64x2.size a
  h_S64x2 : 0 < S64x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x2_S10000x2_1_0_0_1_n_n_wf : DotDims.WF S10000x64 S64x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x2.size a ≤ S64x2.size a
  hwx2_1 : ∀ i : grid2.Coords, EltTy.bits .f32 = 32 ∨ (Rect.block (s := S64x2) S64x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x2.size a ≤ S100000x2.size a
  hwx3_0 : ∀ i : grid3.Coords, EltTy.bits .f32 = 32 ∨ (Rect.block (s := S100000x2) S10000x2.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2.size a ≤ S1x2.size a
  hwx3_1 : ∀ i : grid3.Coords, EltTy.bits .f32 = 32 ∨ (Rect.block (s := S1x2) S1x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x2.size a ≤ S100000x2.size a
  hwx3_2 : ∀ i : grid3.Coords, EltTy.bits .f32 = 32 ∨ (Rect.block (s := S100000x2) S10000x2.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x2 : Shape := ⟨2, ![100000, 2]⟩
abbrev S3300000x2 : Shape := ⟨2, ![3300000, 2]⟩
abbrev S1x2 : Shape := ⟨2, ![1, 2]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x2, .f32⟩
  | 5 => ⟨S2, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S100000x64, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x64, .f32⟩
  | 56 => ⟨S3300000x1, .f32⟩
  | 57 => ⟨S3300000x64, .f32⟩
  | 58 => ⟨S3300000x64, .f32⟩
  | 59 => ⟨S_, .f32⟩
  | 60 => ⟨S100000x64, .f32⟩
  | 61 => ⟨S3300000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S100000x2, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x2, .f32⟩
  | 119 => ⟨S3300000x1, .f32⟩
  | 120 => ⟨S3300000x2, .f32⟩
  | 121 => ⟨S3300000x2, .f32⟩
  | 122 => ⟨S_, .f32⟩
  | 123 => ⟨S100000x2, .f32⟩
  | 124 => ⟨S3300000x1, .i32⟩
  | 125 => ⟨S100000x2, .f32⟩
  | 126 => ⟨S1x2, .f32⟩
  | 127 => ⟨S100000x2, .f32⟩
  | _ => ⟨S100000x128, .f32⟩

abbrev hbmTy0_1 (i : Nat) : BufTy := match i % 128 with
  | 0 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3300000x1_S3300000_n_0_0_1_wf : ScatterDims.WF S100000 S3300000x1 S3300000 [] [0] [0] 1
  dot_S100000x128_S128x64_S100000x64_1_0_0_1_n_n_wf : DotDims.WF S100000x128 S128x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x2_S100000x2_1_0_0_1_n_n_wf : DotDims.WF S100000x64 S64x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.Dense.lean ====
/-
  The dense steps of a graph-convolution layer as whole-array functions over the extended reals.

  A layer multiplies the node features by a weight matrix, aggregates along the edges (on the host), and adds a
  bias row, the first layer also clamping below at zero.  Here: the product X·W of an M×K array with a K×N matrix as
  ONE function `rowsTimes X W` of the whole arrays — entry (p, q) is row p of X times W at column q, a sum over
  k < K —, that the vector unit's product into a zero accumulator and the host's dot_general both ARE that function,
  and the two facts that let a product or a bias step computed block of rows by block of rows be read as a block of
  the whole array's: an entry of `rowsTimes` (of `addRow`) depends only on its own row of the left operand.
-/
import Idealize.ShloMosaic.Lib.ValueIdx
import Idealize.ShloMosaic.PureOps.Ideal.Laws
import proofs.«171847_j88132728914210_1_alg».proof.Proof.LibRowDot
import proofs.«171847_j88132728914210_1_alg».proof.Proof.LibRowBias

noncomputable section

open scoped BigOperators

namespace Cert.Gcn

open Idealize.ShloMosaic Idealize.ShloMosaic.ValueIdx Cert.RowDot Cert.RowBias

/-- X·W: entry (p, q) is the sum over k of X(p, k) · W(k, q). -/
def rowsTimes {M K N : Nat} (X : (⟨2, ![M, K]⟩ : Shape).Idx → EReal) (W : (⟨2, ![K, N]⟩ : Shape).Idx → EReal) :
    (⟨2, ![M, N]⟩ : Shape).Idx → EReal := fun i => rowDot (rowOf X (i 0)) W (i 1)

/-- The vector unit's product into the zero accumulator is X·W, whatever formats the operands were rounded to. -/
theorem matmul_zero_eq {M K N : Nat} {φ₁ φ₂ : FTy} (prec : Option ContractPrecision)
    (l : FVec Ideal (⟨2, ![M, K]⟩ : Shape) φ₁) (r : FVec Ideal (⟨2, ![K, N]⟩ : Shape) φ₂) :
    FloatOps.matmul (DotDims.plain M K N) prec l r (constant (F := Ideal) (⟨2, ![M, N]⟩ : Shape) .f32 0x00000000#32)
      = rowsTimes l r :=
  funext fun j => matmul_plain_zero_apply prec l r j

/-- The host's dot_general is X·W. -/
theorem dotGeneral_eq {M K N : Nat} {φ₁ φ₂ : FTy} (prec : Option ContractPrecision) (sched : HostSchedule)
    (l : FVec Ideal (⟨2, ![M, K]⟩ : Shape) φ₁) (r : FVec Ideal (⟨2, ![K, N]⟩ : Shape) φ₂) :
    FloatOps.dotGeneral (DotDims.plain M K N) prec sched l r = rowsTimes l r :=
  funext fun j => dotGeneral_plain_apply prec sched l r j

/-- An entry of a block's product is the whole product's entry, when the block's row is the whole array's row
    and the matrices agree along that column. -/
theorem rowsTimes_at {B M K N : Nat} (x : (⟨2, ![B, K]⟩ : Shape).Idx → EReal) (X : (⟨2, ![M, K]⟩ : Shape).Idx → EReal)
    (W W' : (⟨2, ![K, N]⟩ : Shape).Idx → EReal) (j : (⟨2, ![B, N]⟩ : Shape).Idx) (J : (⟨2, ![M, N]⟩ : Shape).Idx)
    (hx : ∀ k : Fin K, x (ix2 (j 0) k) = X (ix2 (J 0) k)) (hW : ∀ k : Fin K, W (ix2 k (j 1)) = W' (ix2 k (J 1))) :
    rowsTimes x W j = rowsTimes X W' J := by
  show ∑ k : Fin K, x (ix2 (j 0) k) * W (ix2 k (j 1)) = ∑ k : Fin K, X (ix2 (J 0) k) * W' (ix2 k (J 1))
  exact Finset.sum_congr rfl fun k _ => by rw [hx k, hW k]

/-- An entry of a block's "plus the row" is the whole array's, when the block's entry is the whole array's and the
    rows agree at that column. -/
theorem addRow_at {B M N : Nat} (a : (⟨2, ![B, N]⟩ : Shape).Idx → EReal) (A : (⟨2, ![M, N]⟩ : Shape).Idx → EReal)
    (b b' : (⟨2, ![1, N]⟩ : Shape).Idx → EReal) (j : (⟨2, ![B, N]⟩ : Shape).Idx) (J : (⟨2, ![M, N]⟩ : Shape).Idx)
    (ha : a j = A J) (hb : b (ix2 0 (j 1)) = b' (ix2 0 (J 1))) :
    addRow a b j = addRow A b' J := by
  show a j + b (ix2 0 (j 1)) = A J + b' (ix2 0 (J 1))
  rw [ha, hb]

end Cert.Gcn

end
-- ==== Proof.RefStages.lean ====
/-
  The reference's two graph-convolution layers, stage by stage, as functions of the argument arrays.

  From the 2×E edge list e:  the source and destination nodes with a self loop appended for every node (`src`,
  `dst`);  a node list as a column of gather start indices, a negative index wrapped by the node count
  (`startCol`), or as a plain column of scatter indices (`col`);  the in-degree counted by scattering ones
  (`deg`), its inverse square root where positive and 0 elsewhere (`dinv`);  the symmetric edge weight
  dinv[src]·dinv[dst] (`norm`);  and the aggregation of a node table h: gather the source rows, scale each by its
  edge weight, scatter-add at the destinations (`agg64`, `agg2` for the two widths).  A layer is
  agg(X·W) + bias; the first is clamped below at zero.  `out` is the two layers composed, and it is, term for
  term, what the reference's run leaves in its result.  At the exact values the dot_generals are `rowsTimes`, the
  bias steps `addRow` of the bias recast as a row, the clamp `clampBelow`:  `out_eq`.
-/
import proofs.«171847_j88132728914210_1_alg».proof.Proof.RefRun
import proofs.«171847_j88132728914210_1_alg».proof.Proof.Dense

noncomputable section

namespace Cert.ReferenceIdeal.Stage

open Cert.ReferenceIdeal Cert.ReferenceIdeal.Gen Idealize.ShloMosaic Idealize.ShloMosaic.TcCoe Idealize.SL.Sem
open Cert.Gcn Cert.RowBias

variable {F : FTy → Type} [FloatOps F]

/-- The source node of every edge, then every node once (its self loop). -/
def src (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination node of every edge, then every node once. -/
def dst (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node list as a column of scatter indices. -/
def col (v : (⟨S3300000, .i32⟩ : BufTy).Contents (Elt F)) : (⟨S3300000x1, .i32⟩ : BufTy).Contents (Elt F) :=
  broadcastInDim S3300000x1 ![0] bcast_S3300000_S3300000x1_0 v

/-- A node list as a column of gather start indices: a negative index has the node count added. -/
def startCol (v : (⟨S3300000, .i32⟩ : BufTy).Contents (Elt F)) : (⟨S3300000x1, .i32⟩ : BufTy).Contents (Elt F) :=
  broadcastInDim S3300000x1 ![0] bcast_S3300000_S3300000x1_0 (select (cmpi .slt v (broadcastInDim S3300000 ![] bcast_S_S3300000 (constantI S_ 32 0#32))) (addi v (broadcastInDim S3300000 ![] bcast_S_S3300000 (constantI S_ 32 100000#32))) v)

/-- The in-degree with self loops: ones scattered at the destinations. -/
def deg (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (col (F := F) (dst (F := F) e)) (broadcastInDim S3300000 ![] bcast_S_S3300000 (constant S_ .f32 0x3F800000#32))

/-- 1/√deg where deg > 0, and 0 elsewhere. -/
def dinv (e : (⟨S2x3200000, .i32⟩ : BufTy).Contents (Elt F)) : (⟨S100000, .f32⟩ : BufTy).Contents (Elt F) :=
  select (cmpf (F := F) .ogt (deg (F := F) e) (broadcastInDim S100000 ![] bcast_S_S100000 (constant S_ .f32 0x00000000#32))) (Host.rsqrt (deg (F := F) e)) (broadcastInDim S100000 ![] bcast_S_S100000 (id (constant S_ .f32 0x00000000#32)))

/-- The edge weight dinv[src] · dinv[dst]. -/
def norm (e : (⟨S2x3200000, .i32⟩ : BufTy).Contents (Elt F)) : (⟨S3300000, .f32⟩ : BufTy).Contents (Elt F) :=
  mulf (Host.gather gather_S100000_S3300000x1_S3300000_n_0_n_n_0_1_1 (dinv (F := F) e) (startCol (F := F) (src (F := F) e))) (Host.gather gather_S100000_S3300000x1_S3300000_n_0_n_n_0_1_1 (dinv (F := F) e) (startCol (F := F) (dst (F := F) e)))

/-- The aggregation of a 64-wide node table: source rows, each scaled by its edge weight, added at the destinations. -/
def agg64 (h : (⟨S100000x64, .f32⟩ : BufTy).Contents (Elt F)) (e : (⟨S2x3200000, .i32⟩ : BufTy).Contents (Elt F)) :
    (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (col (F := F) (dst (F := F) e)) (mulf (Host.gather gather_S100000x64_S3300000x1_S3300000x64_1_0_n_n_0_1_164 h (startCol (F := F) (src (F := F) e))) (broadcastInDim S3300000x64 ![0, 1] bcast_S3300000x1_S3300000x64_0_1 (broadcastInDim S3300000x1 ![0] bcast_S3300000_S3300000x1_0 (norm (F := F) e))))

/-- The aggregation of a 2-wide node table. -/
def agg2 (h : (⟨S100000x2, .f32⟩ : BufTy).Contents (Elt F)) (e : (⟨S2x3200000, .i32⟩ : BufTy).Contents (Elt F)) :
    (⟨S100000x2, .f32⟩ : BufTy).Contents (Elt F) :=
  Host.scatterAdd scatter_S100000x2_S3300000x1_S3300000x2_1_0_0_1 (broadcastInDim S100000x2 ![] bcast_S_S100000x2 (constant S_ .f32 0x00000000#32)) (col (F := F) (dst (F := F) e)) (mulf (Host.gather gather_S100000x2_S3300000x1_S3300000x2_1_0_n_n_0_1_12 h (startCol (F := F) (src (F := F) e))) (broadcastInDim S3300000x2 ![0, 1] bcast_S3300000x1_S3300000x2_0_1 (broadcastInDim S3300000x1 ![0] bcast_S3300000_S3300000x1_0 (norm (F := F) e))))

/-- The first layer: aggregate X·W1, add the bias, clamp below at zero. -/
def layer1 (x0 : (⟨S100000x128, .f32⟩ : BufTy).Contents (Elt F)) (e : (⟨S2x3200000, .i32⟩ : BufTy).Contents (Elt F))
    (x2 : (⟨S128x64, .f32⟩ : BufTy).Contents (Elt F)) (x3 : (⟨S64, .f32⟩ : BufTy).Contents (Elt F)) :
    (⟨S100000x64, .f32⟩ : BufTy).Contents (Elt F) :=
  maximumf (addf (agg64 (F := F) (Host.dotGeneral dot_S100000x128_S128x64_S100000x64_1_0_0_1_n_n none x0 x2) e) (broadcastInDim S100000x64 ![0, 1] bcast_S1x64_S100000x64_0_1 (broadcastInDim S1x64 ![1] bcast_S64_S1x64_1 x3))) (broadcastInDim S100000x64 ![] bcast_S_S100000x64 (constant S_ .f32 0x00000000#32))

/-- The two layers. -/
def out (x0 : (⟨S100000x128, .f32⟩ : BufTy).Contents (Elt F)) (e : (⟨S2x3200000, .i32⟩ : BufTy).Contents (Elt F))
    (x2 : (⟨S128x64, .f32⟩ : BufTy).Contents (Elt F)) (x3 : (⟨S64, .f32⟩ : BufTy).Contents (Elt F))
    (x4 : (⟨S64x2, .f32⟩ : BufTy).Contents (Elt F)) (x5 : (⟨S2, .f32⟩ : BufTy).Contents (Elt F)) :
    (⟨S100000x2, .f32⟩ : BufTy).Contents (Elt F) :=
  addf (agg2 (F := F) (Host.dotGeneral dot_S100000x64_S64x2_S100000x2_1_0_0_1_n_n none (layer1 (F := F) x0 e x2 x3) x4) e) (broadcastInDim S100000x2 ![0, 1] bcast_S1x2_S100000x2_0_1 (broadcastInDim S1x2 ![1] bcast_S2_S1x2_1 x5))

set_option maxRecDepth 8192 in
/-- The term the reference's run leaves in its result is the two layers of the argument arrays. -/
theorem res_eq (m : (ℓ : Loc nD τ sig) → Buf (Elt F) ℓ) (c : Dev nD) :
    Cert.ReferenceIdeal.ValueP.res_main_v94 m c
      = out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v94
  rfl

/-- The constant the first layer is clamped at. -/
abbrev zeroBits : BitVec 32 := 0x00000000#32

/-- The first layer's dot_general is the product of the feature array and the first weight matrix. -/
theorem dot1_eq (l : FVec Ideal S100000x128 .f32) (r : FVec Ideal S128x64 .f32) :
    Host.dotGeneral (F := Ideal) dot_S100000x128_S128x64_S100000x64_1_0_0_1_n_n none l r
      = rowsTimes (M := 100000) (K := 128) (N := 64) l r :=
  dotGeneral_eq (M := 100000) (K := 128) (N := 64) none .single l r

/-- The second layer's dot_general is the product of the first layer's output and the second weight matrix. -/
theorem dot2_eq (l : FVec Ideal S100000x64 .f32) (r : FVec Ideal S64x2 .f32) :
    Host.dotGeneral (F := Ideal) dot_S100000x64_S64x2_S100000x2_1_0_0_1_n_n none l r
      = rowsTimes (M := 100000) (K := 64) (N := 2) l r :=
  dotGeneral_eq (M := 100000) (K := 64) (N := 2) none .single l r

/-- At the exact values: the two layers with the products as `rowsTimes`, the bias steps as `addRow` of the bias
    recast as a 1×N row, the clamp as `clampBelow`. -/
theorem out_eq (x0 : (⟨S100000x128, .f32⟩ : BufTy).Contents (Elt Ideal)) (e : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S64x2, .f32⟩ : BufTy).Contents (Elt Ideal)) (x5 : (⟨S2, .f32⟩ : BufTy).Contents (Elt Ideal))
    (hc3 : S64.ShapeCasts S1x64) (hc5 : S2.ShapeCasts S1x2) :
    out (F := Ideal) x0 e x2 x3 x4 x5
      = addRow (M := 100000) (N := 2)
          (agg2 (F := Ideal)
            (rowsTimes (M := 100000) (K := 64) (N := 2)
              (clampBelow (Ideal.ofBits .f32 zeroBits)
                (addRow (M := 100000) (N := 64)
                  (agg64 (F := Ideal) (rowsTimes (M := 100000) (K := 128) (N := 64) x0 x2) e)
                  (shapeCast S1x64 x3 hc3)))
              x4) e)
          (shapeCast S1x2 x5 hc5) := by
  unfold out layer1
  rw [dot1_eq x0 x2,
    addf_hostSpread_eq (M := 100000) (N := 64) _ x3 bcast_S64_S1x64_1 bcast_S1x64_S100000x64_0_1 hc3,
    maximumf_hostSplat_eq _ zeroBits bcast_S_S100000x64,
    dot2_eq _ x4,
    addf_hostSpread_eq (M := 100000) (N := 2) _ x5 bcast_S2_S1x2_1 bcast_S1x2_S100000x2_0_1 hc5]

end Cert.ReferenceIdeal.Stage

end
-- ==== Proof.KernelRun.lean ====
/-
  The idealized kernel's whole run, with its result named.

  The program is four pipelined regions among five stretches of host operations.  Its run is the chain of those nine
  segments from the launch memory; the buffer contents at the boundaries are the fold `Gen.W0 … Gen.W9` (a host
  stretch applies its operations' functions, a region replaces its windows' arrays by what its write-backs leave).
  Every execution terminates without a fault, and in the final state every buffer outside the kernels' scoped
  storage holds the last boundary's contents `Gen.W9`: so the result buffer holds `Gen.W9` at the result's
  reference, and each argument buffer, which no segment writes, its launch contents.
-/
import proofs.«171847_j88132728914210_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel from a memory with zero counters terminates, nothing
    faulting; the result buffer ends at the last boundary's contents, and the six argument buffers as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  -- what is read off the final state: every unscoped buffer at the last boundary's contents
  let atW9 : Dev nD → MemSt nD τ sig (Elt F) → Prop :=
    fun c s => ∀ b ∈ Pipeline.ucRefs τ sig, s.mem (((c : Thread nD τ)).1, b) = W9 m ρ c b
  -- the staging cells' tokens as the launch deals them
  let toks := initOf (Pipeline.cells cfgs cellOf_inj) (Pipeline.launchToks cfgs cellOf_inj)
  refine Pipeline.θ_run_regions_kit (pcfgs (F := F)) adm (pdats m ρ) () cellOf_inj emb₁ defs₀ 𝒱₀ L lv m ρ main (segs m ρ)
    ?isChain ?distinct (O₀ := 0) (hL := fun _ _ => rfl) (G := fun _ => iprop(emp)) (u₀ := toks) ?tokens
    (T₀ := fun c => iprop(StableHlo.held (c : Thread nD τ) (Pipeline.ucRefs τ sig) (W0 m ρ c) ∗ R c)) (Tₙ := Tₙ m ρ)
    ?links ?start (QY := atW9) ?finish ?read
  case isChain =>
    -- @main is the nine segments run in order
    intro c Q
    rw [main_run m ρ c]
  case distinct =>
    -- the four regions are four different pipelines
    simp only [segs, Pipeline.Seg.pipes_host, Pipeline.Seg.pipes_region, Pipeline.Seg.pipes_nil]
    decide
  case tokens =>
    -- the tokens are owned as dealt, and no core is handed anything beside them
    iintro Htoks
    imodintro
    isplitl [Htoks]
    · iapply (show (ownU toks : sProp 𝕄) ⊢ BI.own (emb₁ toks) from .rfl)
      iexact Htoks
    iapply (show (BI.emp : sProp 𝕄) ⊢ bigSep Finset.univ (fun _ : Dev nD => (BI.emp : sProp 𝕄)) from by
      rw [BI.bigSep_emp_const])
    iempintro
  case links =>
    -- each segment starts from the contents the one before it ends at: the boundaries' fold, name by name
    exact ⟨fun _ => .rfl, fun _ => .rfl, fun _ => .rfl, fun _ => .rfl, fun _ => .rfl, fun _ => .rfl, fun _ => .rfl,
      fun _ => .rfl, fun _ => .rfl, fun _ => .rfl⟩
  case start =>
    -- at launch a core holds its unscoped buffers at the launch memory, its generator register, and owes nothing
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hbufs, -, Howes, -, Hreg, -⟩, -⟩
    imodintro
    isplitl [Hbufs]
    · iexact Hbufs
    isplitl [Hreg]
    · iexists _
      iexact Hreg
    iexists ∅
    iexact Howes
  case finish =>
    -- holding every unscoped buffer at the last boundary's contents, the final state's memory agrees there
    intro c s'
    iintro ⟨⟨Hbufs, -⟩, Hstate⟩
    unfold StableHlo.held
    imodintro
    iapply (pointsTo_read_all (Pipeline.ucRefs τ sig) (fun b => (((c : Thread nD τ)).1, b)) (W9 m ρ c) s')
    isplitl [Hbufs] <;> iassumption
  case read =>
    -- the result's buffer is unscoped; an argument's too, and the fold at an argument walks back to the launch
    intro s h c
    exact ⟨h c _ (mem_uc main_v61 (by decide)),
      (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c)⟩

end Cert.KernelIdeal.RunValue

end
-- ==== Proof.Region0.lean ====
/-
  The first region: the node features times the first weight matrix, ten blocks of 10000 rows.

  At grid point t the body loads rows 10000·t … 10000·t + 9999 of the feature array and the whole 128×64 weight
  matrix, and stores their product; the write-back puts it at the same rows of the result array.  A row of a
  product depends on that row of the left operand only, so what point t writes back is block t of the WHOLE product
  `rowsTimes X W`; the ten blocks tile the 100000 rows (row r is in block r / 10000), so the array ends holding the
  whole product.  Stated at any contents `V` of the buffers at the region's entry.
-/
import proofs.«171847_j88132728914210_1_alg».proof.Proof.Gen.KernelIdeal.Frame
import Idealize.ShloMosaic.Lib.Pipeline.Value
import proofs.«171847_j88132728914210_1_alg».proof.Proof.Dense

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the roundings to bf16 are the identity). -/
theorem pay_eq (x0 : Vec Ideal S10000x128 .f32) (x1 : Vec Ideal S128x64 .f32) :
    k0_pay1 (F := Ideal) x0 x1 = rowsTimes (M := 10000) (K := 128) (N := 64) x0 x1 :=
  matmul_zero_eq (M := 10000) (K := 128) (N := 64) (φ₁ := .bf16) (φ₂ := .bf16) none x0 x1

/-- The index maps over the grid: the features' and the result's row block are point t's, every other block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The whole product of the feature array and the weight matrix as the region finds them. -/
abbrev product (c : Dev nD) : S100000x64.Idx → EReal :=
  rowsTimes (M := 100000) (K := 128) (N := 64) (V c main_arg0) (V c main_arg2)

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq]
  obtain ⟨e0, e1, e2, e3, e4⟩ := idx_facts t
  funext j
  show rowsTimes (M := 10000) (K := 128) (N := 64) (iblk0 V c 0 t) (iblk0 V c 1 t) j
    = rowsTimes (M := 100000) (K := 128) (N := 64) (V c main_arg0) (V c main_arg2) (((cfg0.win 2).blk t).view.emb j)
  refine rowsTimes_at (B := 10000) (M := 100000) (K := 128) (N := 64) _ _ _ _ j _ ?_ ?_
  · intro k
    show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · intro k
    show V c main_arg2 (((cfg0.win 1).blk t).view.emb (ix2 k (j 1)))
      = V c main_arg2 (ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega

/-- An index of the result array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row r of the result array is in the block of the point whose row block is r / 10000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the region the result array holds the whole product. -/
theorem final (c : Dev nD) : (dat0 V c).arrAt 2 cfg0.N = product V c :=
  (dat0 V c).arrAt_eq_of_cover 2 (product V c) (fun t _ => flushed_eq V c t) cover

end Cert.KernelIdeal.Region0

end
-- ==== Proof.Region1.lean ====
/-
  The second region: the bias row added to every row, the sum clamped below at zero, ten blocks of 10000 rows.

  At grid point t the body loads rows 10000·t … 10000·t + 9999 of the aggregated array and the whole 1×64 bias
  row, spreads the row over the block's rows, adds, takes the maximum with a splat of zero and stores; the
  write-back puts the block at the same rows of the result array.  An entry of the result depends on the same entry
  of the aggregated array and on the bias at its column only, so point t writes back block t of ONE whole-array
  function, the ten blocks tile the rows, and the array ends holding it.  Stated at any contents `V` at the
  region's entry.
-/
import proofs.«171847_j88132728914210_1_alg».proof.Proof.Gen.KernelIdeal.Frame
import Idealize.ShloMosaic.Lib.Pipeline.Value
import proofs.«171847_j88132728914210_1_alg».proof.Proof.Dense

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn Cert.RowBias

variable (V : (c : Dev nD) → (b : Ref sig .tc) → Buf (Elt Ideal) ((c : Thread nD τ).loc b))

theorem hz : (![0, 0] : Fin 2 → Nat) = fun _ => 0 := funext fun a => by fin_cases a <;> rfl

/-- The body's stored value: its first block plus its second, a row, on every row, clamped below at zero. -/
theorem pay_eq (x0 : Vec Ideal S10000x64 .f32) (x1 : Vec Ideal S1x64 .f32) :
    k1_pay1 (F := Ideal) x0 x1 = clampBelow (Ideal.ofBits .f32 0x00000000#32) (addRow (M := 10000) (N := 64) x0 x1) := by
  show maximumf (addf (shapeCast S10000x64 x0 shapeCasts_S10000x64_S10000x64)
      (broadcastTo S10000x64 (shapeCast S1x64 x1 shapeCasts_S1x64_S1x64) broadcasts_S1x64_S10000x64))
      (broadcast S10000x64 (Scalar.ofBits (F := Ideal) .f32 0x00000000#32)) = _
  rw [addf_spread_eq (M := 10000) (N := 64) x0 x1 shapeCasts_S10000x64_S10000x64 shapeCasts_S1x64_S1x64 broadcasts_S1x64_S10000x64]
  exact maximumf_splat_eq _ _

/-- The index maps over the grid: the left operand's and the result's row block are point t's, every other block index is 0. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The whole-array function of the aggregated array and the bias row as the region finds them. -/
abbrev biased (c : Dev nD) : S100000x64.Idx → EReal :=
  clampBelow (Ideal.ofBits .f32 0x00000000#32) (addRow (M := 100000) (N := 64) (V c main_v43) (V c main_v44))

/-- What point t writes back is block t of that function. -/
theorem flushed_eq (c : Dev nD) (t : Fin cfg1.N) :
    (dat1 V c).flushed 2 t = ((cfg1.win 2).blk t).view.read (Elt Ideal) (biased V c) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  rw [pay_eq]
  obtain ⟨e0, e1, e2, e3, e4⟩ := idx_facts t
  funext j
  show clampBelow (Ideal.ofBits .f32 0x00000000#32) (addRow (M := 10000) (N := 64) (iblk1 V c 0 t) (iblk1 V c 1 t)) j
    = clampBelow (Ideal.ofBits .f32 0x00000000#32) (addRow (M := 100000) (N := 64) (V c main_v43) (V c main_v44)) (((cfg1.win 2).blk t).view.emb j)
  refine congrArg (fun y : EReal => max y (Ideal.ofBits .f32 0x00000000#32)) ?_
  refine addRow_at (B := 10000) (M := 100000) (N := 64) _ _ _ _ j _ ?_ ?_
  · show V c main_v43 (((cfg1.win 0).blk t).view.emb j) = V c main_v43 (((cfg1.win 2).blk t).view.emb j)
    refine congrArg _ (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 64 + 1 * (j 1).val = win1_2.index t (1 : Fin 2) * 64 + 1 * (j 1).val
      omega
  · show V c main_v44 (((cfg1.win 1).blk t).view.emb (ix2 0 (j 1)))
      = V c main_v44 (ix2 0 ((((cfg1.win 2).blk t).view.emb j) 1))
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 64 + 1 * (j 1).val = win1_2.index t (1 : Fin 2) * 64 + 1 * (j 1).val
      omega

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row r of the result array is in the block of the point whose row block is r / 10000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After the region the result array holds that function. -/
theorem final (c : Dev nD) : (dat1 V c).arrAt 2 cfg1.N = biased V c :=
  (dat1 V c).arrAt_eq_of_cover 2 (biased V c) (fun t _ => flushed_eq V c t) cover

end Cert.KernelIdeal.Region1

end
-- ==== Proof.Region2.lean ====
/-
  The third region: the first layer's output times the second weight matrix, ten blocks of 10000 rows.

  As in the first region: at grid point t the body loads rows 10000·t … 10000·t + 9999 of the left array (recast
  to its own shape, the identity) and the whole 64×2 weight matrix, and stores their product; a row of a product
  depends on that row of the left operand only, so point t writes back block t of the whole product, the ten blocks
  tile the rows, and the array ends holding `rowsTimes H W`.  Stated at any contents `V` at the region's entry.
-/
import proofs.«171847_j88132728914210_1_alg».proof.Proof.Gen.KernelIdeal.Frame
import Idealize.ShloMosaic.Lib.Pipeline.Value
import proofs.«171847_j88132728914210_1_alg».proof.Proof.Dense

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn Cert.RowBias

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks (the recast and the roundings are the identity). -/
theorem pay_eq (x0 : Vec Ideal S10000x64 .f32) (x1 : Vec Ideal S64x2 .f32) :
    k2_pay1 (F := Ideal) x0 x1 = rowsTimes (M := 10000) (K := 64) (N := 2) x0 x1 := by
  refine (matmul_zero_eq (M := 10000) (K := 64) (N := 2) (φ₁ := .bf16) (φ₂ := .bf16) none
    (shapeCast S10000x64 x0 shapeCasts_S10000x64_S10000x64) x1).trans ?_
  rw [shapeCast_self]

/-- The index maps over the grid: the left operand's and the result's row block are point t's, every other block index is 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The whole product of the left array and the weight matrix as the region finds them. -/
abbrev product (c : Dev nD) : S100000x2.Idx → EReal :=
  rowsTimes (M := 100000) (K := 64) (N := 2) (V c main_v45) (V c main_arg4)

/-- What point t writes back is block t of the whole product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x2) hz]
  rw [pay_eq]
  obtain ⟨e0, e1, e2, e3, e4⟩ := idx_facts t
  funext j
  show rowsTimes (M := 10000) (K := 64) (N := 2) (iblk2 V c 0 t) (iblk2 V c 1 t) j
    = rowsTimes (M := 100000) (K := 64) (N := 2) (V c main_v45) (V c main_arg4) (((cfg2.win 2).blk t).view.emb j)
  refine rowsTimes_at (B := 10000) (M := 100000) (K := 64) (N := 2) _ _ _ _ j _ ?_ ?_
  · intro k
    show V c main_v45 (((cfg2.win 0).blk t).view.emb (ix2 (j 0) k))
      = V c main_v45 (ix2 ((((cfg2.win 2).blk t).view.emb j) 0) k)
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * k.val = k.val
      omega
  · intro k
    show V c main_arg4 (((cfg2.win 1).blk t).view.emb (ix2 k (j 1)))
      = V c main_arg4 (ix2 k ((((cfg2.win 2).blk t).view.emb j) 1))
    refine congrArg _ (funext fun a => Fin.ext ?_)
    match a with
    | ⟨0, _⟩ =>
      show win2_1.index t (0 : Fin 2) * 64 + 1 * k.val = k.val
      omega
    | ⟨1, _⟩ =>
      show win2_1.index t (1 : Fin 2) * 2 + 1 * (j 1).val = win2_2.index t (1 : Fin 2) * 2 + 1 * (j 1).val
      omega

/-- An index of the result array is in point t's block iff each coordinate is in the block's range on its axis. -/
theorem mem_blk (t : Fin cfg2.N) (i : S100000x2.Idx) :
    i ∈ ((cfg2.win 2).blk t).view.set ↔ ∀ a : Fin 2, win2_2.index t a * S10000x2.size a ≤ (i a).val
      ∧ (i a).val < win2_2.index t a * S10000x2.size a + S10000x2.size a := by
  show i ∈ ((View.whole main_v46).slice (win2_2.rect t)).set ↔ _
  rw [View.set_slice_whole, Rect.mem_set_unit]
  exact Iff.rfl

/-- Row r of the result array is in the block of the point whose row block is r / 10000. -/
theorem cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 2 ≤ (i 1).val ∧ (i 1).val < win2_2.index t (1 : Fin 2) * 2 + 2
    omega

/-- After the region the result array holds the whole product. -/
theorem final (c : Dev nD) : (dat2 V c).arrAt 2 cfg2.N = product V c :=
  (dat2 V c).arrAt_eq_of_cover 2 (product V c) (fun t _ => flushed_eq V c t) cover

end Cert.KernelIdeal.Region2

end
-- ==== Proof.Region3.lean ====
/-
  The fourth region: the bias row added to every row, ten blocks of 10000 rows.

  At grid point t the body loads rows 10000·t … 10000·t + 9999 of the aggregated array and the whole 1×2 bias
  row, spreads the row over the block's rows, adds and stores; the
  write-back puts the block at the same rows of the result array.  An entry of the result depends on the same entry
  of the aggregated array and on the bias at its column only, so point t writes back block t of ONE whole-array
  function, the ten blocks tile the rows, and the array ends holding it.  Stated at any contents `V` at the
  region's entry.
-/
import proofs.«171847_j88132728914210_1_alg».proof.Proof.Gen.KernelIdeal.Frame
import Idealize.ShloMosaic.Lib.Pipeline.Value
import proofs.«171847_j88132728914210_1_alg».proof.Proof.Dense

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Gcn Cert.RowBias

variable (V : (c : Dev nD) → (b : Ref sig .tc) → Buf (Elt Ideal) ((c : Thread nD τ).loc b))

theorem hz : (![0, 0] : Fin 2 → Nat) = fun _ => 0 := funext fun a => by fin_cases a <;> rfl

/-- The body's stored value: its first block plus its second, a row, on every row. -/
theorem pay_eq (x0 : Vec Ideal S10000x2 .f32) (x1 : Vec Ideal S1x2 .f32) :
    k3_pay1 (F := Ideal) x0 x1 = addRow (M := 10000) (N := 2) x0 x1 := by
  exact addf_spread_eq (M := 10000) (N := 2) x0 x1 shapeCasts_S10000x2_S10000x2 shapeCasts_S1x2_S1x2 broadcasts_S1x2_S10000x2

/-- The index maps over the grid: the left operand's and the result's row block are point t's, every other block index is 0. -/
theorem idx_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The whole-array function of the aggregated array and the bias row as the region finds them. -/
abbrev biased (c : Dev nD) : S100000x2.Idx → EReal :=
  addRow (M := 100000) (N := 2) (V c main_v59) (V c main_v60)

/-- What point t writes back is block t of that function. -/
theorem flushed_eq (c : Dev nD) (t : Fin cfg3.N) :
    (dat3 V c).flushed 2 t = ((cfg3.win 2).blk t).view.read (Elt Ideal) (biased V c) := by
  show (cfg3.win 2).cut (grid3.coords t) ((dat3 V c).after 2 t) = _
  rw [after3_2]
  unfold out3_2
  rw [View.canon_unit_zero hz]
  simp only [View.ld_unit_zero (S := S10000x2) hz, View.ld_unit_zero (S := S1x2) hz]
  rw [pay_eq]
  obtain ⟨e0, e1, e2, e3, e4⟩ := idx_facts t
  funext j
  show addRow (M := 10000) (N := 2) (iblk3 V c 0 t) (iblk3 V c 1 t) j
    = addRow (M := 100000) (N := 2) (V c main_v59) (V c main_v60) (((cfg3.win 2).blk t).view.emb j)
  refine addRow_at (B := 10000) (M := 100000) (N := 2) _ _ _ _ j _ ?_ ?_
  · show V c main_v59 (((cfg3.win 0).blk t).view.emb j) = V c main_v59 (((cfg3.win 2).blk t).view.emb j)
    refine congrArg _ (funext fun a => Fin.ext ?_)
    match a with
    | ⟨0, _⟩ =>
      show win3_0.index t (0 : Fin 2) * 10000 + 1 * (j 0).val = win3_2.index t (0 : Fin 2) * 10000 + 1 * (j 0).val
      omega
    | ⟨1, _⟩ =>
      show win3_0.index t (1 : Fin 2) * 2 + 1 * (j 1).val = win3_2.index t (1 : Fin 2) * 2 + 1 * (j 1).val
      omega
  · show V c main_v60 (((cfg3.win 1).blk t).view.emb (ix2 0 (j 1)))
      = V c main_v60 (ix2 0 ((((cfg3.win 2).blk t).view.emb j) 1))
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 2 + 1 * (j 1).val = win3_2.index t (1 : Fin 2) * 2 + 1 * (j 1).val
      omega

/-- An index of the result array is in point t's block iff each coordinate is in the block's range on its axis. -/
theorem mem_blk (t : Fin cfg3.N) (i : S100000x2.Idx) :
    i ∈ ((cfg3.win 2).blk t).view.set ↔ ∀ a : Fin 2, win3_2.index t a * S10000x2.size a ≤ (i a).val
      ∧ (i a).val < win3_2.index t a * S10000x2.size a + S10000x2.size a := by
  show i ∈ ((View.whole main_v61).slice (win3_2.rect t)).set ↔ _
  rw [View.set_slice_whole, Rect.mem_set_unit]
  exact Iff.rfl

/-- Row r of the result array is in the block of the point whose row block is r / 10000. -/
theorem cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 2 ≤ (i 1).val ∧ (i 1).val < win3_2.index t (1 : Fin 2) * 2 + 2
    omega

/-- After the region the result array holds that function. -/
theorem final (c : Dev nD) : (dat3 V c).arrAt 2 cfg3.N = biased V c :=
  (dat3 V c).arrAt_eq_of_cover 2 (biased V c) (fun t _ => flushed_eq V c t) cover

end Cert.KernelIdeal.Region3

end
-- ==== Proof.KernelHost.lean ====
/-
  The kernel's stretches of host operations, read as functions of the buffers they start from.

  Around its four regions the kernel's @main runs the same host operations as the reference: before the first
  region the edge lists with self loops, the degree, its inverse square root and the edge weights; between the
  first and second regions the gather – scale – scatter-add aggregation of the first product and the bias recast
  as a row; before the last region the same aggregation of the second product and the second bias as a row.  For ANY
  contents `U` of the buffers at a stretch's entry, each buffer the next region reads is the reference's stage
  function (`Cert.ReferenceIdeal.Stage`) of the entry contents it depends on, and a buffer the stretch does not
  write keeps its contents.
-/
import proofs.«171847_j88132728914210_1_alg».proof.Proof.Gen.KernelIdeal.Launch
import Idealize.ShloMosaic.Lib.StableHlo.Run
import proofs.«171847_j88132728914210_1_alg».proof.Proof.RefStages

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (U : Valuation τ sig (Elt Ideal))

/-- The contents after the three stretches that precede the first region. -/
abbrev pre : Valuation τ sig (Elt Ideal) := after hostOps0_2 (after hostOps0_1 (after hostOps0 U))

/-- The source list with self loops. -/
theorem pre_src : pre U (Proc.devRef .tc main_v3)
    = Cert.ReferenceIdeal.Stage.src (F := Ideal) (U (Proc.devRef .tc main_arg1)) := by
  after_results_simp <;> rfl

/-- The destination list with self loops. -/
theorem pre_dst : pre U (Proc.devRef .tc main_v6)
    = Cert.ReferenceIdeal.Stage.dst (F := Ideal) (U (Proc.devRef .tc main_arg1)) := by
  after_results_simp <;> rfl

/-! The edge weights, one stretch at a time: the degree's comparison with zero and its inverse square root after the
    first stretch, the choice between them after the second, the two gathers and their product after the third. -/

/-- After the first stretch: where the degree is positive. -/
theorem first_pos : after hostOps0 U (Proc.devRef .tc main_v12)
    = cmpf (F := Ideal) .ogt (Cert.ReferenceIdeal.Stage.deg (F := Ideal) (U (Proc.devRef .tc main_arg1)))
        (broadcastInDim S100000 ![] bcast_S_S100000 (constant S_ .f32 0x00000000#32)) := by
  after_results_simp <;> rfl

/-- After the first stretch: the inverse square root of the degree. -/
theorem first_rsqrt : after hostOps0 U (Proc.devRef .tc main_v13)
    = Host.rsqrt (F := Ideal) (s := S100000) (φ := .f32) (Cert.ReferenceIdeal.Stage.deg (F := Ideal) (U (Proc.devRef .tc main_arg1))) := by
  after_results_simp <;> rfl

/-- After the first stretch: the zero the inverse root is replaced by where the degree is not positive. -/
theorem first_zero : after hostOps0 U (Proc.devRef .tc main_cst_2) = constant (F := Ideal) S_ .f32 0x00000000#32 := by
  after_results_simp <;> rfl

theorem first_src : after hostOps0 U (Proc.devRef .tc main_v3)
    = Cert.ReferenceIdeal.Stage.src (F := Ideal) (U (Proc.devRef .tc main_arg1)) := by
  after_results_simp <;> rfl

theorem first_dst : after hostOps0 U (Proc.devRef .tc main_v6)
    = Cert.ReferenceIdeal.Stage.dst (F := Ideal) (U (Proc.devRef .tc main_arg1)) := by
  after_results_simp <;> rfl

/-- The second stretch chooses, node by node, between the inverse root and zero. -/
theorem second_dinv : after hostOps0_1 U (Proc.devRef .tc main_v14)
    = select (U (Proc.devRef .tc main_v12)) (U (Proc.devRef .tc main_v13))
        (broadcastInDim S100000 ![] bcast_S_S100000 (id (U (Proc.devRef .tc main_cst_2)))) := by
  after_results_simp <;> rfl

/-- The second stretch leaves the edge lists alone. -/
theorem second_src : after hostOps0_1 U (Proc.devRef .tc main_v3) = U (Proc.devRef .tc main_v3) := by after_results_simp <;> rfl
theorem second_dst : after hostOps0_1 U (Proc.devRef .tc main_v6) = U (Proc.devRef .tc main_v6) := by after_results_simp <;> rfl

/-- The third stretch gathers the inverse roots at the two ends of every edge and multiplies them. -/
theorem third_norm : after hostOps0_2 U (Proc.devRef .tc main_v29)
    = (mulf (F := Ideal)
        (Host.gather gather_S100000_S3300000x1_S3300000_n_0_n_n_0_1_1 (U (Proc.devRef .tc main_v14) : FVec Ideal S100000 .f32)
          (Cert.ReferenceIdeal.Stage.startCol (F := Ideal) (U (Proc.devRef .tc main_v3))))
        (Host.gather gather_S100000_S3300000x1_S3300000_n_0_n_n_0_1_1 (U (Proc.devRef .tc main_v14) : FVec Ideal S100000 .f32)
          (Cert.ReferenceIdeal.Stage.startCol (F := Ideal) (U (Proc.devRef .tc main_v6)))) : FVec Ideal S3300000 .f32) := by
  after_results_simp <;> rfl

/-- The edge weights. -/
theorem pre_norm : pre U (Proc.devRef .tc main_v29)
    = Cert.ReferenceIdeal.Stage.norm (F := Ideal) (U (Proc.devRef .tc main_arg1)) := by
  show after hostOps0_2 (after hostOps0_1 (after hostOps0 U)) (Proc.devRef .tc main_v29) = _
  rw [third_norm, second_dinv, second_src, second_dst, first_pos, first_rsqrt, first_zero, first_src, first_dst]
  rfl

/-- No argument array is written before the first region. -/
theorem pre_arg0 : pre U (Proc.devRef .tc main_arg0) = U (Proc.devRef .tc main_arg0) := by after_results_simp <;> rfl
theorem pre_arg2 : pre U (Proc.devRef .tc main_arg2) = U (Proc.devRef .tc main_arg2) := by after_results_simp <;> rfl
theorem pre_arg3 : pre U (Proc.devRef .tc main_arg3) = U (Proc.devRef .tc main_arg3) := by after_results_simp <;> rfl
theorem pre_arg4 : pre U (Proc.devRef .tc main_arg4) = U (Proc.devRef .tc main_arg4) := by after_results_simp <;> rfl
theorem pre_arg5 : pre U (Proc.devRef .tc main_arg5) = U (Proc.devRef .tc main_arg5) := by after_results_simp <;> rfl

variable (e : (⟨S2x3200000, .i32⟩ : BufTy).Contents (Elt Ideal))

/-- Between the first two regions: the first product aggregated along the edges. -/
theorem mid_agg (h3 : U (Proc.devRef .tc main_v3) = Cert.ReferenceIdeal.Stage.src (F := Ideal) e)
    (h6 : U (Proc.devRef .tc main_v6) = Cert.ReferenceIdeal.Stage.dst (F := Ideal) e)
    (h29 : U (Proc.devRef .tc main_v29) = Cert.ReferenceIdeal.Stage.norm (F := Ideal) e) :
    after hostOps1 U (Proc.devRef .tc main_v43)
      = Cert.ReferenceIdeal.Stage.agg64 (F := Ideal) (U (Proc.devRef .tc main_v30)) e := by
  after_results_simp
  rw [h3, h6, h29]
  rfl

/-- Between the first two regions: the first bias recast as a 1×64 row. -/
theorem mid_bias : after hostOps1 U (Proc.devRef .tc main_v44)
    = shapeCast S1x64 (U (Proc.devRef .tc main_arg3)) shapeCasts_S64_S1x64 := by
  after_results_simp <;> rfl

/-- What the stretch between the first two regions leaves alone. -/
theorem mid_v3 : after hostOps1 U (Proc.devRef .tc main_v3) = U (Proc.devRef .tc main_v3) := by after_results_simp <;> rfl
theorem mid_v6 : after hostOps1 U (Proc.devRef .tc main_v6) = U (Proc.devRef .tc main_v6) := by after_results_simp <;> rfl
theorem mid_v29 : after hostOps1 U (Proc.devRef .tc main_v29) = U (Proc.devRef .tc main_v29) := by after_results_simp <;> rfl
theorem mid_arg4 : after hostOps1 U (Proc.devRef .tc main_arg4) = U (Proc.devRef .tc main_arg4) := by after_results_simp <;> rfl
theorem mid_arg5 : after hostOps1 U (Proc.devRef .tc main_arg5) = U (Proc.devRef .tc main_arg5) := by after_results_simp <;> rfl

/-- Before the last region: the second product aggregated along the edges. -/
theorem post_agg (h3 : U (Proc.devRef .tc main_v3) = Cert.ReferenceIdeal.Stage.src (F := Ideal) e)
    (h6 : U (Proc.devRef .tc main_v6) = Cert.ReferenceIdeal.Stage.dst (F := Ideal) e)
    (h29 : U (Proc.devRef .tc main_v29) = Cert.ReferenceIdeal.Stage.norm (F := Ideal) e) :
    after hostOps3 U (Proc.devRef .tc main_v59)
      = Cert.ReferenceIdeal.Stage.agg2 (F := Ideal) (U (Proc.devRef .tc main_v46)) e := by
  after_results_simp
  rw [h3, h6, h29]
  rfl

/-- Before the last region: the second bias recast as a 1×2 row. -/
theorem post_bias : after hostOps3 U (Proc.devRef .tc main_v60)
    = shapeCast S1x2 (U (Proc.devRef .tc main_arg5)) shapeCasts_S2_S1x2 := by
  after_results_simp <;> rfl

end Cert.KernelIdeal.HostValue

end
-- ==== Proof.KernelValue.lean ====
/-
  The idealized kernel's result, boundary by boundary.

  The buffer contents at the nine segment boundaries of the kernel's run are the fold `Gen.W0 … Gen.W9`.  Walking it
  from the launch memory: the first three stretches leave the edge lists, the edge weights and the untouched
  arguments; the first region leaves X·W1 (its ten row blocks are the whole product's); the next stretch aggregates
  it along the edges and recasts the first bias as a row; the second region adds that row and clamps below at zero;
  the third region multiplies by W2; the last stretch aggregates again and recasts the second bias; the last region
  adds it.  Each step reads buffers the earlier steps left, and a region or a stretch leaves every buffer it does not
  write as it found it.  The result buffer therefore ends at the two layers of the launch arguments — the same
  function the reference computes (`Cert.ReferenceIdeal.Stage.out`).
-/
import proofs.«171847_j88132728914210_1_alg».proof.Proof.Gen.KernelIdeal.Frame
import proofs.«171847_j88132728914210_1_alg».proof.Proof.Region0
import proofs.«171847_j88132728914210_1_alg».proof.Proof.Region1
import proofs.«171847_j88132728914210_1_alg».proof.Proof.Region2
import proofs.«171847_j88132728914210_1_alg».proof.Proof.Region3
import proofs.«171847_j88132728914210_1_alg».proof.Proof.KernelHost
import proofs.«171847_j88132728914210_1_alg».proof.Proof.RefStages

set_option maxRecDepth 16384

noncomputable section

namespace Cert.KernelIdeal.WholeValue

open Cert.KernelIdeal Cert.KernelIdeal.Gen
open Idealize.ShloMosaic Idealize.ShloMosaic.TcCoe Idealize.SL.Sem Idealize.ShloMosaic.StableHlo
open Cert.Gcn Cert.RowBias

variable (m : (ℓ : Loc nD τ sig) → Buf (Elt Ideal) ℓ) (ρ : Dev nD → PrngReg) (c : Dev nD)

/-- The six argument arrays as launched on core c: features, edge list, first weights and bias, second weights and bias. -/
abbrev a0 : (⟨S100000x128, .f32⟩ : BufTy).Contents (Elt Ideal) := m ((c : Thread nD τ).loc main_arg0)
abbrev a1 : (⟨S2x3200000, .i32⟩ : BufTy).Contents (Elt Ideal) := m ((c : Thread nD τ).loc main_arg1)
abbrev a2 : (⟨S128x64, .f32⟩ : BufTy).Contents (Elt Ideal) := m ((c : Thread nD τ).loc main_arg2)
abbrev a3 : (⟨S64, .f32⟩ : BufTy).Contents (Elt Ideal) := m ((c : Thread nD τ).loc main_arg3)
abbrev a4 : (⟨S64x2, .f32⟩ : BufTy).Contents (Elt Ideal) := m ((c : Thread nD τ).loc main_arg4)
abbrev a5 : (⟨S2, .f32⟩ : BufTy).Contents (Elt Ideal) := m ((c : Thread nD τ).loc main_arg5)

/-! ## At the first region's entry -/

theorem w3_src : W3 m ρ c (Proc.devRef .tc main_v3) = Cert.ReferenceIdeal.Stage.src (F := Ideal) (a1 m c) := HostValue.pre_src (W0 m ρ c)
theorem w3_dst : W3 m ρ c (Proc.devRef .tc main_v6) = Cert.ReferenceIdeal.Stage.dst (F := Ideal) (a1 m c) := HostValue.pre_dst (W0 m ρ c)
theorem w3_norm : W3 m ρ c (Proc.devRef .tc main_v29) = Cert.ReferenceIdeal.Stage.norm (F := Ideal) (a1 m c) := HostValue.pre_norm (W0 m ρ c)
theorem w3_arg0 : W3 m ρ c (Proc.devRef .tc main_arg0) = a0 m c := HostValue.pre_arg0 (W0 m ρ c)
theorem w3_arg2 : W3 m ρ c (Proc.devRef .tc main_arg2) = a2 m c := HostValue.pre_arg2 (W0 m ρ c)
theorem w3_arg3 : W3 m ρ c (Proc.devRef .tc main_arg3) = a3 m c := HostValue.pre_arg3 (W0 m ρ c)
theorem w3_arg4 : W3 m ρ c (Proc.devRef .tc main_arg4) = a4 m c := HostValue.pre_arg4 (W0 m ρ c)
theorem w3_arg5 : W3 m ρ c (Proc.devRef .tc main_arg5) = a5 m c := HostValue.pre_arg5 (W0 m ρ c)

/-! ## After the first region: X·W1 -/

theorem w4_prod : W4 m ρ c (Proc.devRef .tc main_v30) = rowsTimes (M := 100000) (K := 128) (N := 64) (a0 m c) (a2 m c) :=
  (W4_arr m ρ c 2).trans ((Region0.final (V3 m ρ) c).trans
    (congrArg₂ (fun (X : (⟨S100000x128, .f32⟩ : BufTy).Contents (Elt Ideal)) (W : (⟨S128x64, .f32⟩ : BufTy).Contents (Elt Ideal)) =>
      rowsTimes (M := 100000) (K := 128) (N := 64) X W) (w3_arg0 m ρ c) (w3_arg2 m ρ c)))
theorem w4_src : W4 m ρ c (Proc.devRef .tc main_v3) = Cert.ReferenceIdeal.Stage.src (F := Ideal) (a1 m c) :=
  (W4_of_ne m ρ c main_v3 (by decide)).trans (w3_src m ρ c)
theorem w4_dst : W4 m ρ c (Proc.devRef .tc main_v6) = Cert.ReferenceIdeal.Stage.dst (F := Ideal) (a1 m c) :=
  (W4_of_ne m ρ c main_v6 (by decide)).trans (w3_dst m ρ c)
theorem w4_norm : W4 m ρ c (Proc.devRef .tc main_v29) = Cert.ReferenceIdeal.Stage.norm (F := Ideal) (a1 m c) :=
  (W4_of_ne m ρ c main_v29 (by decide)).trans (w3_norm m ρ c)
theorem w4_arg3 : W4 m ρ c (Proc.devRef .tc main_arg3) = a3 m c :=
  (W4_of_ne m ρ c main_arg3 (by decide)).trans (w3_arg3 m ρ c)
theorem w4_arg4 : W4 m ρ c (Proc.devRef .tc main_arg4) = a4 m c :=
  (W4_of_ne m ρ c main_arg4 (by decide)).trans (w3_arg4 m ρ c)
theorem w4_arg5 : W4 m ρ c (Proc.devRef .tc main_arg5) = a5 m c :=
  (W4_of_ne m ρ c main_arg5 (by decide)).trans (w3_arg5 m ρ c)

/-! ## After the stretch between the first two regions: the aggregation, and the bias as a row -/

theorem w5_agg : W5 m ρ c (Proc.devRef .tc main_v43) = Cert.ReferenceIdeal.Stage.agg64 (F := Ideal) (rowsTimes (M := 100000) (K := 128) (N := 64) (a0 m c) (a2 m c)) (a1 m c) :=
  (HostValue.mid_agg (W4 m ρ c) (a1 m c) (w4_src m ρ c) (w4_dst m ρ c) (w4_norm m ρ c)).trans
    (congrArg (fun h : (⟨S100000x64, .f32⟩ : BufTy).Contents (Elt Ideal) => Cert.ReferenceIdeal.Stage.agg64 (F := Ideal) h (a1 m c)) (w4_prod m ρ c))
theorem w5_bias : W5 m ρ c (Proc.devRef .tc main_v44) = shapeCast S1x64 (a3 m c) shapeCasts_S64_S1x64 :=
  (HostValue.mid_bias (W4 m ρ c)).trans
    (congrArg (fun x : (⟨S64, .f32⟩ : BufTy).Contents (Elt Ideal) => shapeCast S1x64 x shapeCasts_S64_S1x64) (w4_arg3 m ρ c))
theorem w5_src : W5 m ρ c (Proc.devRef .tc main_v3) = Cert.ReferenceIdeal.Stage.src (F := Ideal) (a1 m c) :=
  (HostValue.mid_v3 (W4 m ρ c)).trans (w4_src m ρ c)
theorem w5_dst : W5 m ρ c (Proc.devRef .tc main_v6) = Cert.ReferenceIdeal.Stage.dst (F := Ideal) (a1 m c) :=
  (HostValue.mid_v6 (W4 m ρ c)).trans (w4_dst m ρ c)
theorem w5_norm : W5 m ρ c (Proc.devRef .tc main_v29) = Cert.ReferenceIdeal.Stage.norm (F := Ideal) (a1 m c) :=
  (HostValue.mid_v29 (W4 m ρ c)).trans (w4_norm m ρ c)
theorem w5_arg4 : W5 m ρ c (Proc.devRef .tc main_arg4) = a4 m c :=
  (HostValue.mid_arg4 (W4 m ρ c)).trans (w4_arg4 m ρ c)
theorem w5_arg5 : W5 m ρ c (Proc.devRef .tc main_arg5) = a5 m c :=
  (HostValue.mid_arg5 (W4 m ρ c)).trans (w4_arg5 m ρ c)

/-! ## After the second region: the first layer's output -/

theorem w6_layer : W6 m ρ c (Proc.devRef .tc main_v45) = clampBelow (Ideal.ofBits .f32 0x00000000#32) (addRow (M := 100000) (N := 64) (Cert.ReferenceIdeal.Stage.agg64 (F := Ideal) (rowsTimes (M := 100000) (K := 128) (N := 64) (a0 m c) (a2 m c)) (a1 m c)) (shapeCast S1x64 (a3 m c) shapeCasts_S64_S1x64)) :=
  (W6_arr m ρ c 2).trans ((Region1.final (V5 m ρ) c).trans
    (congrArg₂ (fun (A : (⟨S100000x64, .f32⟩ : BufTy).Contents (Elt Ideal)) (b : (⟨S1x64, .f32⟩ : BufTy).Contents (Elt Ideal)) =>
      clampBelow (Ideal.ofBits .f32 0x00000000#32) (addRow (M := 100000) (N := 64) A b)) (w5_agg m ρ c) (w5_bias m ρ c)))
theorem w6_src : W6 m ρ c (Proc.devRef .tc main_v3) = Cert.ReferenceIdeal.Stage.src (F := Ideal) (a1 m c) :=
  (W6_of_ne m ρ c main_v3 (by decide)).trans (w5_src m ρ c)
theorem w6_dst : W6 m ρ c (Proc.devRef .tc main_v6) = Cert.ReferenceIdeal.Stage.dst (F := Ideal) (a1 m c) :=
  (W6_of_ne m ρ c main_v6 (by decide)).trans (w5_dst m ρ c)
theorem w6_norm : W6 m ρ c (Proc.devRef .tc main_v29) = Cert.ReferenceIdeal.Stage.norm (F := Ideal) (a1 m c) :=
  (W6_of_ne m ρ c main_v29 (by decide)).trans (w5_norm m ρ c)
theorem w6_arg4 : W6 m ρ c (Proc.devRef .tc main_arg4) = a4 m c :=
  (W6_of_ne m ρ c main_arg4 (by decide)).trans (w5_arg4 m ρ c)
theorem w6_arg5 : W6 m ρ c (Proc.devRef .tc main_arg5) = a5 m c :=
  (W6_of_ne m ρ c main_arg5 (by decide)).trans (w5_arg5 m ρ c)

/-! ## After the third region: the first layer's output times W2 -/

theorem w7_prod : W7 m ρ c (Proc.devRef .tc main_v46) = rowsTimes (M := 100000) (K := 64) (N := 2) (clampBelow (Ideal.ofBits .f32 0x00000000#32) (addRow (M := 100000) (N := 64) (Cert.ReferenceIdeal.Stage.agg64 (F := Ideal) (rowsTimes (M := 100000) (K := 128) (N := 64) (a0 m c) (a2 m c)) (a1 m c)) (shapeCast S1x64 (a3 m c) shapeCasts_S64_S1x64))) (a4 m c) :=
  (W7_arr m ρ c 2).trans ((Region2.final (V6 m ρ) c).trans
    (congrArg₂ (fun (H : (⟨S100000x64, .f32⟩ : BufTy).Contents (Elt Ideal)) (W : (⟨S64x2, .f32⟩ : BufTy).Contents (Elt Ideal)) =>
      rowsTimes (M := 100000) (K := 64) (N := 2) H W) (w6_layer m ρ c) (w6_arg4 m ρ c)))
theorem w7_src : W7 m ρ c (Proc.devRef .tc main_v3) = Cert.ReferenceIdeal.Stage.src (F := Ideal) (a1 m c) :=
  (W7_of_ne m ρ c main_v3 (by decide)).trans (w6_src m ρ c)
theorem w7_dst : W7 m ρ c (Proc.devRef .tc main_v6) = Cert.ReferenceIdeal.Stage.dst (F := Ideal) (a1 m c) :=
  (W7_of_ne m ρ c main_v6 (by decide)).trans (w6_dst m ρ c)
theorem w7_norm : W7 m ρ c (Proc.devRef .tc main_v29) = Cert.ReferenceIdeal.Stage.norm (F := Ideal) (a1 m c) :=
  (W7_of_ne m ρ c main_v29 (by decide)).trans (w6_norm m ρ c)
theorem w7_arg5 : W7 m ρ c (Proc.devRef .tc main_arg5) = a5 m c :=
  (W7_of_ne m ρ c main_arg5 (by decide)).trans (w6_arg5 m ρ c)

/-! ## After the last stretch, and after the last region -/

theorem w8_agg : W8 m ρ c (Proc.devRef .tc main_v59) = Cert.ReferenceIdeal.Stage.agg2 (F := Ideal) (rowsTimes (M := 100000) (K := 64) (N := 2) (clampBelow (Ideal.ofBits .f32 0x00000000#32) (addRow (M := 100000) (N := 64) (Cert.ReferenceIdeal.Stage.agg64 (F := Ideal) (rowsTimes (M := 100000) (K := 128) (N := 64) (a0 m c) (a2 m c)) (a1 m c)) (shapeCast S1x64 (a3 m c) shapeCasts_S64_S1x64))) (a4 m c)) (a1 m c) :=
  (HostValue.post_agg (W7 m ρ c) (a1 m c) (w7_src m ρ c) (w7_dst m ρ c) (w7_norm m ρ c)).trans
    (congrArg (fun h : (⟨S100000x2, .f32⟩ : BufTy).Contents (Elt Ideal) => Cert.ReferenceIdeal.Stage.agg2 (F := Ideal) h (a1 m c)) (w7_prod m ρ c))
theorem w8_bias : W8 m ρ c (Proc.devRef .tc main_v60) = shapeCast S1x2 (a5 m c) shapeCasts_S2_S1x2 :=
  (HostValue.post_bias (W7 m ρ c)).trans
    (congrArg (fun x : (⟨S2, .f32⟩ : BufTy).Contents (Elt Ideal) => shapeCast S1x2 x shapeCasts_S2_S1x2) (w7_arg5 m ρ c))

theorem w9_out : W9 m ρ c (Proc.devRef .tc main_v61) = addRow (M := 100000) (N := 2) (Cert.ReferenceIdeal.Stage.agg2 (F := Ideal) (rowsTimes (M := 100000) (K := 64) (N := 2) (clampBelow (Ideal.ofBits .f32 0x00000000#32) (addRow (M := 100000) (N := 64) (Cert.ReferenceIdeal.Stage.agg64 (F := Ideal) (rowsTimes (M := 100000) (K := 128) (N := 64) (a0 m c) (a2 m c)) (a1 m c)) (shapeCast S1x64 (a3 m c) shapeCasts_S64_S1x64))) (a4 m c)) (a1 m c)) (shapeCast S1x2 (a5 m c) shapeCasts_S2_S1x2) :=
  (W9_arr m ρ c 2).trans ((Region3.final (V8 m ρ) c).trans
    (congrArg₂ (fun (A : (⟨S100000x2, .f32⟩ : BufTy).Contents (Elt Ideal)) (b : (⟨S1x2, .f32⟩ : BufTy).Contents (Elt Ideal)) =>
      addRow (M := 100000) (N := 2) A b) (w8_agg m ρ c) (w8_bias m ρ c)))

/-- The kernel's result is the reference's two layers of the launch arguments. -/
theorem result_eq : W9 m ρ c (Proc.devRef .tc main_v61)
    = Cert.ReferenceIdeal.Stage.out (F := Ideal) (a0 m c) (a1 m c) (a2 m c) (a3 m c) (a4 m c) (a5 m c) :=
  (w9_out m ρ c).trans
    (Cert.ReferenceIdeal.Stage.out_eq (a0 m c) (a1 m c) (a2 m c) (a3 m c) (a4 m c) (a5 m c) shapeCasts_S64_S1x64 shapeCasts_S2_S1x2).symm

end Cert.KernelIdeal.WholeValue

end
-- ==== Proof.lean ====
/-
  A two-layer graph convolution on 100000 nodes, its two dense products and two bias steps as pipelined kernels,
  against the plain reference: equal results over the extended reals.

  Both programs compute, from node features X [100000, 128], an edge list e [2, 3200000], weights W1 [128, 64],
  W2 [64, 2] and biases b1, b2:
      H   = max(agg(X·W1) + b1, 0),      result = agg(H·W2) + b2,
  where agg(T) gathers the rows of T at the edges' sources (a self loop added for every node), scales each by the
  edge weight dinv[src]·dinv[dst] (dinv = 1/√degree where the degree is positive, else 0) and adds them up at the
  edges' destinations.  The gathers, scatters and the edge weights are the SAME host operations in both programs.
  The kernel differs in the four dense steps, which it runs as pipelined regions over ten blocks of 10000 rows: the
  two products on the matrix unit (operands rounded to bf16 — the identity at the exact values — into a zero
  accumulator) and the two bias steps on the vector unit (the bias kept as a 1×N row and spread over the rows).

  Why the results agree.  A row of X·W depends on that row of X only, and an entry of A + b on that entry of A and
  one entry of b; so each region's ten written-back blocks are the ten row blocks of ONE whole-array function
  (`rowsTimes`, `addRow`, `clampBelow`: Proof/Dense.lean, Proof/Region0 … Region3.lean), and they tile the rows.
  The matrix unit's product into zero and the host's dot_general are the same sum over k (any order: addition of
  extended reals is commutative and associative), and the vector unit's and the host's bias steps are the same
  `addRow` of the bias as a row (Proof/RefStages.lean `out_eq`).  No step moves a factor across a sum or cancels,
  so the finiteness of the inputs is never used.  The kernel's result is read off its run's boundary contents
  (Proof/KernelRun.lean, Proof/KernelValue.lean), the reference's off its run (Proof/RefRun.lean, Proof/RefStages.lean).
  The idealized kernel is the kernel's own text read at the exact values (no rewrite was applied), so `preserves`
  has nothing to state.
-/
import proofs.«171847_j88132728914210_1_alg».proof.Defs
import proofs.«171847_j88132728914210_1_alg».proof.Proof.Gen.Kernel
import proofs.«171847_j88132728914210_1_alg».proof.Proof.Gen.Kernel.Skeleton
import proofs.«171847_j88132728914210_1_alg».proof.Proof.Gen.Kernel.Launch
import proofs.«171847_j88132728914210_1_alg».proof.Proof.Gen.Kernel.Points
import proofs.«171847_j88132728914210_1_alg».proof.Proof.Gen.Kernel.Frame
import proofs.«171847_j88132728914210_1_alg».proof.Proof.Gen.KernelIdeal
import proofs.«171847_j88132728914210_1_alg».proof.Proof.Gen.KernelIdeal.Skeleton
import proofs.«171847_j88132728914210_1_alg».proof.Proof.Gen.KernelIdeal.Launch
import proofs.«171847_j88132728914210_1_alg».proof.Proof.Gen.KernelIdeal.Points
import proofs.«171847_j88132728914210_1_alg».proof.Proof.Gen.KernelIdeal.Frame
import proofs.«171847_j88132728914210_1_alg».proof.Proof.Gen.ReferenceIdeal
import proofs.«171847_j88132728914210_1_alg».proof.Proof.Gen.Pre_finite_inputs
import proofs.«171847_j88132728914210_1_alg».proof.Proof.RefRun
import proofs.«171847_j88132728914210_1_alg».proof.Proof.RefStages
import proofs.«171847_j88132728914210_1_alg».proof.Proof.KernelRun
import proofs.«171847_j88132728914210_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the two layers of those arguments in their
    results: the kernel's boundary contents walked from the launch, the reference's composed term, ONE function. -/
theorem algebraic : Cert.algebraic_KernelIdeal_ReferenceIdeal := by
  intro m ρ m' ρ' _ hagree
  refine ⟨fun c => Cert.ReferenceIdeal.Stage.out (F := Ideal) (Cert.KernelIdeal.WholeValue.a0 m c) (Cert.KernelIdeal.WholeValue.a1 m c) (Cert.KernelIdeal.WholeValue.a2 m c)
    (Cert.KernelIdeal.WholeValue.a3 m c) (Cert.KernelIdeal.WholeValue.a4 m c) (Cert.KernelIdeal.WholeValue.a5 m c), ?_, ?_⟩
  · exact (θ_run Cert.KernelIdeal.defs _ _).mono
      (fun r h c => ⟨(h c).1.trans (Cert.KernelIdeal.WholeValue.result_eq m ρ c), (h c).2⟩)
      (Cert.KernelIdeal.RunValue.run (F := Ideal) m ρ)
  · refine (θ_run Cert.ReferenceIdeal.defs _ _).mono
      (fun r h c => ⟨(h c).1.trans ((Cert.ReferenceIdeal.Stage.res_eq m' c).trans ?_), (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
